-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S625000x128 : Shape := ⟨2, ![625000, 128]⟩
abbrev S1x128 : Shape := ⟨2, ![1, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S1x128 : S_.BroadcastsInDim S1x128 (![] : Fin 0 → Fin S1x128.rank)
  reducesTo_S1x128_S_d0_1 : S1x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x625000 32) (main_arg2 : FVec F S625000x128 .f32) (main_arg3 : FVec F S1x128 .f32) (main_arg4 : IVec S50000 32) (main_arg5 : FVec F S256x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000x128 .f32 := Host.absf main_arg2
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S2x625000 : Shape := ⟨2, ![2, 625000]⟩
abbrev S625000x128 : Shape := ⟨2, ![625000, 128]⟩
abbrev S1x128 : Shape := ⟨2, ![1, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S5000x128 : Shape := ⟨2, ![5000, 128]⟩

abbrev nBuf : Space → Nat
  | .hbm => 20
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000x128, .f32⟩
  | .hbm, ⟨3, _⟩ => ⟨S1x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x625000, .i32⟩
  | .hbm, ⟨10, _⟩ => ⟨S625000, .i32⟩
  | .hbm, ⟨11, _⟩ => ⟨S_, .f32⟩
  | .hbm, ⟨12, _⟩ => ⟨S50000x128, .f32⟩
  | .hbm, ⟨13, _⟩ => ⟨S625000x1, .i32⟩
  | .hbm, ⟨14, _⟩ => ⟨S50000x128, .f32⟩
  | .hbm, ⟨15, _⟩ => ⟨S128x128, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x625000_S1x625000_0_0 : S2x625000.Slices ![0, 0] S1x625000
  shapeCasts_S1x625000_S625000 : S1x625000.ShapeCasts S625000
  bcast_S_S50000x128 : S_.BroadcastsInDim S50000x128 (![] : Fin 0 → Fin S50000x128.rank)
  bcast_S625000_S625000x1_0 : S625000.BroadcastsInDim S625000x1 (![0] : Fin 1 → Fin S625000x1.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S625000x128 : Shape := ⟨2, ![625000, 128]⟩
abbrev S1x128 : Shape := ⟨2, ![1, 128]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S50000x256 : Shape := ⟨2, ![50000, 256]⟩

abbrev nBuf : Space → Nat
  | .hbm => 28
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000x128, .f32⟩
  | .hbm, ⟨3, _⟩ => ⟨S1x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x625000, .i32⟩
  | .hbm, ⟨10, _⟩ => ⟨S625000, .i32⟩
  | .hbm, ⟨11, _⟩ => ⟨S_, .f32⟩
  | .hbm, ⟨12, _⟩ => ⟨S50000x128, .f32⟩
  | .hbm, ⟨13, _⟩ => ⟨S625000x1, .i32⟩
  | .hbm, ⟨14, _⟩ => ⟨S50000x128, .f32⟩
  | .hbm, ⟨15, _⟩ => ⟨S50000x256, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  bcast_S_S50000x128 : S_.BroadcastsInDim S50000x128 (![] : Fin 0 → Fin S50000x128.rank)
  bcast_S625000_S625000x1_0 : S625000.BroadcastsInDim S625000x1 (![0] : Fin 1 → Fin S625000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S625000x1_S625000x128_1_0_0_1_wf : ScatterDims.WF S50000x128 S625000x1 S625000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The node update, as one function of its six arrays, index by index, over the extended reals.

  For node `r` with feature row `x r` and aggregated edge row `e r` (128 entries each), a weight matrix `w1` of
  256 rows whose upper half multiplies `x r` and whose lower half multiplies `e r`, biases `b1`, `b2` and a
  second weight matrix `w2`:

      hidden r k = max ((Σ_c x r c · w1 c k + Σ_c e r c · w1 (128 + c) k) + b1 k) 0
      out r j    = ((Σ_k hidden r k · w2 k j) + b2 j) + x r j

  The one law used between the two ways of computing the first layer — a single product of the joined row
  `[x r, e r]` with all 256 rows of `w1`, or two products with its halves, added — is that a sum over 256
  consecutive positions is the sum over the first 128 plus the sum over the last 128. Sums of extended reals
  may be regrouped freely (addition is commutative and associative there, infinities included), so nothing
  about finiteness is needed.
-/
import Idealize.ShloMosaic.Lib.ValueIdx
import Idealize.ShloMosaic.PureOps.Ideal

noncomputable section

namespace Cert.NodeUpdate

open Idealize.ShloMosaic Idealize.ShloMosaic.ValueIdx

/-- Row `c` of the upper half of a 256-row matrix. -/
abbrev upper (c : Fin 128) : Fin 256 := ⟨c.val, by omega⟩

/-- Row `c` of the lower half of a 256-row matrix: row `128 + c`. -/
abbrev lower (c : Fin 128) : Fin 256 := ⟨128 + c.val, by omega⟩

/-- A sum over 256 positions is the sum over the first 128 plus the sum over the last 128. -/
theorem sum_halves {M : Type*} [AddCommMonoid M] (f : Fin 256 → M) :
    ∑ k : Fin 256, f k = ∑ c : Fin 128, f (upper c) + ∑ c : Fin 128, f (lower c) :=
  Fin.sum_univ_add (a := 128) (b := 128) f

/-- The zero of the rectifier, kept as the float word it is written with. -/
abbrev zeroWord : EReal := Ideal.ofBits .f32 0x00000000#32

variable (x e : (⟨2, ![50000, 128]⟩ : Shape).Idx → EReal) (w1 : (⟨2, ![256, 128]⟩ : Shape).Idx → EReal)
  (b1 : (⟨1, ![128]⟩ : Shape).Idx → EReal) (w2 : (⟨2, ![128, 128]⟩ : Shape).Idx → EReal)
  (b2 : (⟨1, ![128]⟩ : Shape).Idx → EReal)

/-- Hidden unit `k` of node `r`: the rectified first layer, the two halves of `w1` applied to the node's own
    features and to its aggregated edge features. -/
def hiddenUnit (r : Fin 50000) (k : Fin 128) : EReal :=
  max ((∑ c : Fin 128, x (ix2 r c) * w1 (ix2 (upper c) k) + ∑ c : Fin 128, e (ix2 r c) * w1 (ix2 (lower c) k))
    + b1 (ix1 k)) zeroWord

/-- Output `j` of node `r`: the second layer of the hidden units, plus the node's own feature (the residual). -/
def out (r : Fin 50000) (j : Fin 128) : EReal :=
  (∑ k : Fin 128, hiddenUnit x e w1 b1 r k * w2 (ix2 k j) + b2 (ix1 j)) + x (ix2 r j)

/-- The whole result array. -/
def result : (⟨2, ![50000, 128]⟩ : Shape).Idx → EReal := fun i => out x e w1 b1 w2 b2 (i 0) (i 1)

theorem result_ix2 (r : Fin 50000) (j : Fin 128) :
    result x e w1 b1 w2 b2 (ix2 r j) = out x e w1 b1 w2 b2 r j := rfl

end Cert.NodeUpdate

end
-- ==== Proof.RefSide.lean ====
/-
  The reference's result is the node update of Spec.lean, index by index.

  Read one operation at a time, the reference joins each node's feature row with its aggregated edge row into a
  row of 256 entries, multiplies by the 256-row weight matrix, adds the bias, rectifies, applies the second
  layer and adds the node's features back. A joined row read in its first 128 positions is the node's features,
  in its last 128 the aggregated edge features; splitting the sum over 256 positions there turns the one product
  into the two products of the specification. The aggregated edge features themselves — the scatter sum — stay
  one unopened array.
-/
import proofs.«120654_j54451595379231_1_alg».proof.Proof.Gen.ReferenceIdeal.Read
import proofs.«120654_j54451595379231_1_alg».proof.Proof.Spec
import Idealize.ShloMosaic.Lib.Pipeline.Value
import Idealize.ShloMosaic.Lib.ValueIdx

noncomputable section

namespace Cert.ReferenceIdeal.Node

open Cert.ReferenceIdeal Cert.ReferenceIdeal.Read Idealize.ShloMosaic Idealize.ShloMosaic.ValueIdx Cert.NodeUpdate

variable (x0 : (⟨S50000x128, .f32⟩ : BufTy).Contents (Elt Ideal)) (x1 : (⟨S2x625000, .i32⟩ : BufTy).Contents (Elt Ideal))
  (x2 : (⟨S625000x128, .f32⟩ : BufTy).Contents (Elt Ideal)) (x5 : (⟨S256x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-- The joined row read in its first half is the node's own features. -/
theorem joined_upper (r : Fin 50000) (c : Fin 128) : val_main_v5 x0 x1 x2 (ix2 r (upper c)) = x0 (ix2 r c) := by
  unfold val_main_v5
  refine concatenate_pair_apply_left 1 x0 _ _ (ix2 r (upper c)) rfl (ix2 r c) fun b => ?_
  match b with
  | ⟨0, _⟩ => rfl
  | ⟨1, _⟩ => rfl

/-- The joined row read in its second half, at position 128 + c, is the aggregated edge features at c. -/
theorem joined_lower (r : Fin 50000) (c : Fin 128) :
    val_main_v5 x0 x1 x2 (ix2 r (lower c)) = val_main_v4 x1 x2 (ix2 r c) := by
  unfold val_main_v5
  refine concatenate_pair_apply_right 1 x0 (val_main_v4 x1 x2) _
    (ix2 r (lower c)) rfl rfl (ix2 r c) (fun b hb => ?_) ?_
  · match b with
    | ⟨0, _⟩ => rfl
    | ⟨1, _⟩ => exact absurd rfl hb
  · show c.val + 128 = 128 + c.val
    omega

/-- The operand indices of the first product at output (r, k) and position k' of the shared axis. -/
theorem lidx6 (r : Fin 50000) (k : Fin 128) (k' : Fin 256) : lidx_main_v6 (ix2 r k) k' = ix2 r k' :=
  funext fun a => Fin.ext (by match a with | ⟨0, _⟩ => rfl | ⟨1, _⟩ => rfl)
theorem ridx6 (r : Fin 50000) (k : Fin 128) (k' : Fin 256) : ridx_main_v6 (ix2 r k) k' = ix2 k' k :=
  funext fun a => Fin.ext (by match a with | ⟨0, _⟩ => rfl | ⟨1, _⟩ => rfl)

/-- The first product at (r, k): the 256 positions split into the node's features against the upper half of
    the weights and the aggregated edge features against the lower half. -/
theorem first_product (r : Fin 50000) (k : Fin 128) :
    val_main_v6 x0 x1 x2 x5 (ix2 r k)
      = ∑ c : Fin 128, x0 (ix2 r c) * x5 (ix2 (upper c) k) + ∑ c : Fin 128, val_main_v4 x1 x2 (ix2 r c) * x5 (ix2 (lower c) k) := by
  rw [val_main_v6_apply, sum_halves]
  refine congrArg₂ (· + ·) (Finset.sum_congr rfl fun c _ => ?_) (Finset.sum_congr rfl fun c _ => ?_)
  · rw [lidx6, ridx6, joined_upper]
  · rw [lidx6, ridx6, joined_lower]

/-- A bias vector laid along every row, read at (r, k), is its entry k. -/
theorem bias1 (r : Fin 50000) (k : Fin 128) : val_main_v8 x6 (ix2 r k) = x6 (ix1 k) := by
  rw [val_main_v8_apply, val_main_v7_apply]
  exact congrArg x6 (funext fun a => Fin.ext (by match a with | ⟨0, _⟩ => rfl))
theorem bias2 (r : Fin 50000) (j : Fin 128) : val_main_v13 x8 (ix2 r j) = x8 (ix1 j) := by
  rw [val_main_v13_apply, val_main_v12_apply]
  exact congrArg x8 (funext fun a => Fin.ext (by match a with | ⟨0, _⟩ => rfl))

/-- The rectified first layer is the specification's hidden unit. -/
theorem hidden_ref (r : Fin 50000) (k : Fin 128) :
    val_main_v10 x0 x1 x2 x5 x6 (ix2 r k) = hiddenUnit x0 (val_main_v4 x1 x2) x5 x6 r k := by
  rw [val_main_v10_apply, val_main_v9_apply, first_product, bias1, val_main_call0_v0_apply, val_main_call0_cst_apply]
  rfl

theorem lidx11 (r : Fin 50000) (j : Fin 128) (k : Fin 128) : lidx_main_v11 (ix2 r j) k = ix2 r k :=
  funext fun a => Fin.ext (by match a with | ⟨0, _⟩ => rfl | ⟨1, _⟩ => rfl)
theorem ridx11 (r : Fin 50000) (j : Fin 128) (k : Fin 128) : ridx_main_v11 (ix2 r j) k = ix2 k j :=
  funext fun a => Fin.ext (by match a with | ⟨0, _⟩ => rfl | ⟨1, _⟩ => rfl)

/-- The reference's result array is the node update of its arguments, the aggregated edge features being the
    scatter sum the reference computes. -/
theorem result_ref :
    val_main_v15 x0 x1 x2 x5 x6 x7 x8 = result x0 (val_main_v4 x1 x2) x5 x6 x7 x8 := by
  funext i
  obtain ⟨r, j, rfl⟩ : ∃ (r : Fin 50000) (j : Fin 128), i = ix2 r j := ⟨i 0, i 1, eq_ix2 i⟩
  rw [result_ix2, val_main_v15_apply, val_main_v14_apply, val_main_v11_apply, bias2]
  unfold out
  refine congrArg₂ (· + ·) (congrArg₂ (· + ·) (Finset.sum_congr rfl fun k _ => ?_) rfl) rfl
  rw [lidx11, ridx11, hidden_ref]

end Cert.ReferenceIdeal.Node

end
-- ==== Proof.HostArrays.lean ====
/-
  The arrays the host prepares before the blocks are cut: the aggregated edge features (the scatter sum of the edge
  rows into their source nodes), the upper and lower halves of the first weight matrix, and the two biases as
  one-row matrices — each as the operations' term of the arguments.
-/
import proofs.«120654_j54451595379231_1_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The aggregated edge features: edge rows added into the rows of a zero array that the first row of the
    edge index names. -/
def aggregated (c : Dev nD) : Vec Ideal S50000x128 .f32 :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 (shapeCast _ (extractStridedSlice S1x625000 ![0, 0] (m ((c.tc : Thread nD τ).loc main_arg1)) slices_S2x625000_S1x625000_0_0) shapeCasts_S1x625000_S625000))
    (m ((c.tc : Thread nD τ).loc main_arg2))

theorem V_aggregated (c : Dev nD) : (V m c main_v4 : Vec Ideal S50000x128 .f32) = aggregated m c := by
  dsimp only [V, hostOps0]; after_results <;> rfl

theorem V_upper (c : Dev nD) : (V m c main_v5 : Vec Ideal S128x128 .f32)
    = extractStridedSlice S128x128 ![0, 0] (m ((c.tc : Thread nD τ).loc main_arg5)) slices_S256x128_S128x128_0_0 := by
  dsimp only [V, hostOps0]; after_results <;> rfl

theorem V_lower (c : Dev nD) : (V m c main_v6 : Vec Ideal S128x128 .f32)
    = extractStridedSlice S128x128 ![128, 0] (m ((c.tc : Thread nD τ).loc main_arg5)) slices_S256x128_S128x128_128_0 := by
  dsimp only [V, hostOps0]; after_results <;> rfl

theorem V_bias1 (c : Dev nD) : (V m c main_v7 : Vec Ideal S1x128 .f32)
    = shapeCast _ (m ((c.tc : Thread nD τ).loc main_arg6)) shapeCasts_S128_S1x128 := by
  dsimp only [V, hostOps0]; after_results <;> rfl

theorem V_bias2 (c : Dev nD) : (V m c main_v8 : Vec Ideal S1x128 .f32)
    = shapeCast _ (m ((c.tc : Thread nD τ).loc main_arg8)) shapeCasts_S128_S1x128 := by
  dsimp only [V, hostOps0]; after_results <;> rfl

end Cert.KernelIdeal.Host

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Payload.lean ====
/-
  What the body computes on one block of 5000 rows, entry by entry.

  The body holds a block `x0` of node features, the matching block `x1` of aggregated edge features, the two
  halves `x2`, `x3` of the first weight matrix, the first bias as a one-row matrix `x4`, the second weight
  matrix `x5` and the second bias `x6`. Over the extended reals a change of float format is the identity and a
  matrix product into the zero accumulator is the plain sum of products over the shared axis, so entry (p, q) of
  what it stores is

      ((Σ_k max ((Σ_c x0 p c · x2 c k + Σ_c x1 p c · x3 c k) + x4 0 k) 0 · x5 k q) + x6 0 q) + x0 p q.
-/
import proofs.«120654_j54451595379231_1_alg».proof.Proof.Gen.KernelIdeal.Skeleton
import proofs.«120654_j54451595379231_1_alg».proof.Proof.LibPlainMatmul
import proofs.«120654_j54451595379231_1_alg».proof.Proof.Spec
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.NodeUpdate

/-- A block of 5000 rows times a 128 × 128 matrix, into the zero accumulator, at (p, q): the sum over the shared
    axis of the products of row `p` of the block and column `q` of the matrix. -/
theorem rows_times_square {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ c : Fin 128, l (ix2 p c) * r (ix2 c q) :=
  Cert.LibPlainMatmul.matmul_zero_plain _ l r p q

/-- Entry (p, q) of the block the body stores. -/
theorem stored_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (q : Fin 128) :
    k0_pay1 x0 x1 x2 x3 x4 x5 x6 (ix2 p q)
      = (∑ k : Fin 128, max ((∑ c : Fin 128, x0 (ix2 p c) * x2 (ix2 c k) + ∑ c : Fin 128, x1 (ix2 p c) * x3 (ix2 c k))
            + x4 (ix2 (0 : Fin 1) k)) zeroWord * x5 (ix2 k q) + x6 (ix2 (0 : Fin 1) q)) + x0 (ix2 p q) := by
  unfold k0_pay1
  simp only [shapeCast_self]
  rw [addf_apply, addf_apply, rows_times_square, broadcastTo_1b_ab_apply]
  refine congrArg₂ (· + ·) (congrArg₂ (· + ·) (Finset.sum_congr rfl fun k _ => congrArg₂ (· * ·) ?_ rfl) rfl) rfl
  rw [truncf_apply, maximumf_apply, addf_apply, addf_apply, rows_times_square, rows_times_square,
    broadcastTo_1b_ab_apply, broadcast_apply]
  rfl

end Cert.KernelIdeal.Body

end
-- ==== Proof.Block.lean ====
/-
  One stored block against the whole-array node update.

  If the body's seven loaded blocks are what they should be — rows `5000·T … 5000·T + 4999` of the node features
  and of the aggregated edge features, the upper and lower halves of the first weight matrix, the two biases as
  one-row matrices, the second weight matrix — then entry `y` of the block it stores is the node update at the
  array index `i` that lies `5000·T` rows further down in the same column.
-/
import proofs.«120654_j54451595379231_1_alg».proof.Proof.Payload

noncomputable section

namespace Cert.KernelIdeal.Body

open Cert.KernelIdeal Cert.KernelIdeal.Gen Idealize.ShloMosaic Idealize.ShloMosaic.ValueIdx Cert.NodeUpdate

theorem stored_eq_result (X E : (⟨2, ![50000, 128]⟩ : Shape).Idx → EReal) (W1 : (⟨2, ![256, 128]⟩ : Shape).Idx → EReal)
    (B1 : (⟨1, ![128]⟩ : Shape).Idx → EReal) (W2 : (⟨2, ![128, 128]⟩ : Shape).Idx → EReal) (B2 : (⟨1, ![128]⟩ : Shape).Idx → EReal)
    (x0 x1 : Vec Ideal S5000x128 .f32) (x2 x3 : Vec Ideal S128x128 .f32) (x4 : Vec Ideal S1x128 .f32)
    (x5 : Vec Ideal S128x128 .f32) (x6 : Vec Ideal S1x128 .f32) (T : Nat)
    (h0 : ∀ (p : Fin 5000) (c : Fin 128) (r : Fin 50000), r.val = T * 5000 + p.val → x0 (ix2 p c) = X (ix2 r c))
    (h1 : ∀ (p : Fin 5000) (c : Fin 128) (r : Fin 50000), r.val = T * 5000 + p.val → x1 (ix2 p c) = E (ix2 r c))
    (h2 : ∀ c k : Fin 128, x2 (ix2 c k) = W1 (ix2 (upper c) k))
    (h3 : ∀ c k : Fin 128, x3 (ix2 c k) = W1 (ix2 (lower c) k))
    (h4 : ∀ k : Fin 128, x4 (ix2 (0 : Fin 1) k) = B1 (ix1 k))
    (h5 : ∀ k j : Fin 128, x5 (ix2 k j) = W2 (ix2 k j))
    (h6 : ∀ j : Fin 128, x6 (ix2 (0 : Fin 1) j) = B2 (ix1 j))
    (y : S5000x128.Idx) (i : (⟨2, ![50000, 128]⟩ : Shape).Idx)
    (hi0 : (i 0).val = T * 5000 + (y 0).val) (hi1 : (i 1).val = (y 1).val) :
    k0_pay1 x0 x1 x2 x3 x4 x5 x6 y = result X E W1 B1 W2 B2 i := by
  obtain ⟨p, q, rfl⟩ : ∃ (p : Fin 5000) (q : Fin 128), y = ix2 p q := ⟨y 0, y 1, eq_ix2 y⟩
  obtain ⟨r, j, rfl⟩ : ∃ (r : Fin 50000) (j : Fin 128), i = ix2 r j := ⟨i 0, i 1, eq_ix2 i⟩
  have hj : j = q := Fin.ext hi1
  subst hj
  have hr : r.val = T * 5000 + p.val := hi0
  rw [stored_apply, result_ix2]
  unfold out hiddenUnit
  rw [h0 p j r hr, h6 j]
  refine congrArg₂ (· + ·) (congrArg₂ (· + ·) (Finset.sum_congr rfl fun k _ => ?_) rfl) rfl
  rw [h4 k, h5 k j]
  refine congrArg₂ (· * ·) (congrArg₂ max (congrArg₂ (· + ·) (congrArg₂ (· + ·)
    (Finset.sum_congr rfl fun c _ => ?_) (Finset.sum_congr rfl fun c _ => ?_)) rfl) rfl) rfl
  · rw [h0 p c r hr, h2 c k]
  · rw [h1 p c r hr, h3 c k]

end Cert.KernelIdeal.Body

end
-- ==== Proof.KernelSide.lean ====
/-
  The array the pipelined run leaves is the node update of the argument arrays.

  The grid has ten points; at point `t` the feature block, the aggregated-edge block and the output block are rows
  `5000·t … 5000·t + 4999` of their arrays, and the five parameter windows are their whole arrays at every point.
  So each input block read at an entry is the matching array read `5000·t` rows further down (or, for a parameter,
  at the same place), the stored block is the node update's block `t` (Block.lean), the ten output blocks tile
  the 50000 rows (row `r` lies in block `r / 5000`), and the array after the run is the node update everywhere.
-/
import proofs.«120654_j54451595379231_1_alg».proof.Proof.Gen.KernelIdeal.Value
import proofs.«120654_j54451595379231_1_alg».proof.Proof.HostArrays
import proofs.«120654_j54451595379231_1_alg».proof.Proof.Block
import Idealize.ShloMosaic.Lib.ValueLayout

noncomputable section

namespace Cert.KernelIdeal.Node

open Cert.KernelIdeal Cert.KernelIdeal.Gen Cert.KernelIdeal.Host Cert.KernelIdeal.Body
open Idealize.ShloMosaic Idealize.ShloMosaic.TcCoe Idealize.SL.Sem Idealize.ShloMosaic.ValueIdx Cert.NodeUpdate
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: the three row-blocked windows at block row `t`, the five
    parameter windows at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read at an entry -/

/-- The feature block at point `t` is rows `5000·t …` of the node features. -/
theorem features_block (c : Dev nD) (t : Fin cfg0.N) (p : Fin 5000) (q : Fin 128) (r : Fin 50000)
    (hr : r.val = t.val * 5000 + p.val) :
    (iblk m c 0 t : Vec Ideal S5000x128 .f32) (ix2 p q)
      = (m ((c.tc : Thread nD τ).loc main_arg0) : Vec Ideal S50000x128 .f32) (ix2 r q) := by
  obtain ⟨e0, e1, -⟩ := block_index t
  show V m c main_arg0 (((cfg0.win 0).blk t).view.emb (ix2 p q)) = _
  rw [V_main_arg0]
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * q.val = q.val; rw [e1]; omega

/-- The aggregated-edge block at point `t` is rows `5000·t …` of the aggregated edge features. -/
theorem edges_block (c : Dev nD) (t : Fin cfg0.N) (p : Fin 5000) (q : Fin 128) (r : Fin 50000)
    (hr : r.val = t.val * 5000 + p.val) :
    (iblk m c 1 t : Vec Ideal S5000x128 .f32) (ix2 p q) = aggregated m c (ix2 r q) := by
  obtain ⟨-, -, e0, e1, -⟩ := block_index t
  show V m c main_v4 (((cfg0.win 1).blk t).view.emb (ix2 p q)) = _
  rw [V_aggregated]
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * q.val = q.val; rw [e1]; omega

/-- The third window holds the upper half of the first weight matrix. -/
theorem upper_block (c : Dev nD) (t : Fin cfg0.N) (a k : Fin 128) :
    (iblk m c 2 t : Vec Ideal S128x128 .f32) (ix2 a k)
      = (m ((c.tc : Thread nD τ).loc main_arg5) : Vec Ideal S256x128 .f32) (ix2 (upper a) k) := by
  obtain ⟨-, -, -, -, e0, e1, -⟩ := block_index t
  show V m c main_v5 (((cfg0.win 2).blk t).view.emb (ix2 a k)) = _
  rw [V_upper]
  refine extractStridedSlice_apply _ _ _ _ _ fun b => ?_
  match b with
  | ⟨0, _⟩ => show a.val = 0 + (win0_2.index t (0 : Fin 2) * 128 + 1 * a.val); rw [e0]; omega
  | ⟨1, _⟩ => show k.val = 0 + (win0_2.index t (1 : Fin 2) * 128 + 1 * k.val); rw [e1]; omega

/-- The fourth window holds the lower half of the first weight matrix. -/
theorem lower_block (c : Dev nD) (t : Fin cfg0.N) (a k : Fin 128) :
    (iblk m c 3 t : Vec Ideal S128x128 .f32) (ix2 a k)
      = (m ((c.tc : Thread nD τ).loc main_arg5) : Vec Ideal S256x128 .f32) (ix2 (lower a) k) := by
  obtain ⟨-, -, -, -, -, -, e0, e1, -⟩ := block_index t
  show V m c main_v6 (((cfg0.win 3).blk t).view.emb (ix2 a k)) = _
  rw [V_lower]
  refine extractStridedSlice_apply _ _ _ _ _ fun b => ?_
  match b with
  | ⟨0, _⟩ => show 128 + a.val = 128 + (win0_3.index t (0 : Fin 2) * 128 + 1 * a.val); rw [e0]; omega
  | ⟨1, _⟩ => show k.val = 0 + (win0_3.index t (1 : Fin 2) * 128 + 1 * k.val); rw [e1]; omega

/-- The fifth window holds the first bias as one row. -/
theorem bias1_block (c : Dev nD) (t : Fin cfg0.N) (k : Fin 128) :
    (iblk m c 4 t : Vec Ideal S1x128 .f32) (ix2 (0 : Fin 1) k)
      = (m ((c.tc : Thread nD τ).loc main_arg6) : Vec Ideal S128 .f32) (ix1 k) := by
  obtain ⟨-, -, -, -, -, -, -, -, e0, e1, -⟩ := block_index t
  show V m c main_v7 (((cfg0.win 4).blk t).view.emb (ix2 (0 : Fin 1) k)) = _
  rw [V_bias1]
  have he : ((cfg0.win 4).blk t).view.emb (ix2 (0 : Fin 1) k) = ix2 (0 : Fin 1) k := funext fun b => Fin.ext (by
    match b with
    | ⟨0, _⟩ => show win0_4.index t (0 : Fin 2) * 1 + 1 * 0 = 0; rw [e0]
    | ⟨1, _⟩ => show win0_4.index t (1 : Fin 2) * 128 + 1 * k.val = k.val; rw [e1]; omega)
  rw [he]
  exact shapeCast_a_1a_apply _ _ 0 k

/-- The sixth window holds the second weight matrix. -/
theorem w2_block (c : Dev nD) (t : Fin cfg0.N) (k j : Fin 128) :
    (iblk m c 5 t : Vec Ideal S128x128 .f32) (ix2 k j)
      = (m ((c.tc : Thread nD τ).loc main_arg7) : Vec Ideal S128x128 .f32) (ix2 k j) := by
  obtain ⟨-, -, -, -, -, -, -, -, -, -, e0, e1, -⟩ := block_index t
  show V m c main_arg7 (((cfg0.win 5).blk t).view.emb (ix2 k j)) = _
  rw [V_main_arg7]
  refine congrArg _ (funext fun a => Fin.ext ?_)
  match a with
  | ⟨0, _⟩ => show win0_5.index t (0 : Fin 2) * 128 + 1 * k.val = k.val; rw [e0]; omega
  | ⟨1, _⟩ => show win0_5.index t (1 : Fin 2) * 128 + 1 * j.val = j.val; rw [e1]; omega

/-- The seventh window holds the second bias as one row. -/
theorem bias2_block (c : Dev nD) (t : Fin cfg0.N) (j : Fin 128) :
    (iblk m c 6 t : Vec Ideal S1x128 .f32) (ix2 (0 : Fin 1) j)
      = (m ((c.tc : Thread nD τ).loc main_arg8) : Vec Ideal S128 .f32) (ix1 j) := by
  obtain ⟨-, -, -, -, -, -, -, -, -, -, -, -, e0, e1, -⟩ := block_index t
  show V m c main_v8 (((cfg0.win 6).blk t).view.emb (ix2 (0 : Fin 1) j)) = _
  rw [V_bias2]
  have he : ((cfg0.win 6).blk t).view.emb (ix2 (0 : Fin 1) j) = ix2 (0 : Fin 1) j := funext fun b => Fin.ext (by
    match b with
    | ⟨0, _⟩ => show win0_6.index t (0 : Fin 2) * 1 + 1 * 0 = 0; rw [e0]
    | ⟨1, _⟩ => show win0_6.index t (1 : Fin 2) * 128 + 1 * j.val = j.val; rw [e1]; omega)
  rw [he]
  exact shapeCast_a_1a_apply _ _ 0 j

/-! ## From the blocks to the array -/

/-- The node update of the argument arrays, the aggregated edge features being the host's scatter sum. -/
def whole (c : Dev nD) : Buf (Elt Ideal) ((c : Thread nD τ).loc main_v9) :=
  result (m ((c.tc : Thread nD τ).loc main_arg0)) (aggregated m c) (m ((c.tc : Thread nD τ).loc main_arg5))
    (m ((c.tc : Thread nD τ).loc main_arg6)) (m ((c.tc : Thread nD τ).loc main_arg7)) (m ((c.tc : Thread nD τ).loc main_arg8))

/-- What point `t` writes back is block `t` of the node update. -/
theorem flushed_eq (c : Dev nD) (t : Fin cfg0.N) :
    (dats m 0 c).flushed 7 t = ((cfg0.win 7).blk t).view.read (Elt Ideal) (whole m c) := by
  rw [Value.flushed7]
  unfold out0_7
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, e0, e1⟩ := block_index t
  funext y
  show k0_pay1 (iblk m c 0 t) (iblk m c 1 t) (iblk m c 2 t) (iblk m c 3 t) (iblk m c 4 t) (iblk m c 5 t) (iblk m c 6 t) y
      = result (m ((c.tc : Thread nD τ).loc main_arg0)) (aggregated m c) (m ((c.tc : Thread nD τ).loc main_arg5))
          (m ((c.tc : Thread nD τ).loc main_arg6)) (m ((c.tc : Thread nD τ).loc main_arg7)) (m ((c.tc : Thread nD τ).loc main_arg8))
          (((cfg0.win 7).blk t).view.emb y)
  refine stored_eq_result (m ((c.tc : Thread nD τ).loc main_arg0)) (aggregated m c) (m ((c.tc : Thread nD τ).loc main_arg5))
    (m ((c.tc : Thread nD τ).loc main_arg6)) (m ((c.tc : Thread nD τ).loc main_arg7)) (m ((c.tc : Thread nD τ).loc main_arg8))
    (iblk m c 0 t) (iblk m c 1 t) (iblk m c 2 t) (iblk m c 3 t) (iblk m c 4 t) (iblk m c 5 t) (iblk m c 6 t) t.val
    (features_block m c t) (edges_block m c t) (upper_block m c t) (lower_block m c t) (bias1_block m c t)
    (w2_block m c t) (bias2_block m c t) y (((cfg0.win 7).blk t).view.emb y) ?_ ?_
  · show win0_7.index t (0 : Fin 2) * 5000 + 1 * (y 0).val = t.val * 5000 + (y 0).val
    rw [e0]; omega
  · show win0_7.index t (1 : Fin 2) * 128 + 1 * (y 1).val = (y 1).val
    rw [e1]; omega

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v9).slice (win0_7.rect t)).set ↔ _
  rw [View.set_slice_whole, Rect.mem_set_unit]
  exact Iff.rfl

/-- Row `r` of the array lies in the block of point `r / 5000`: the ten blocks tile the array. -/
theorem covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, -, -, e0, e1⟩ := block_index t
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

/-- The result array after the run is the node update. -/
theorem final (c : Dev nD) : (dats m 0 c).arrAt 7 cfg0.N = whole m c :=
  (dats m 0 c).arrAt_eq_of_cover 7 (whole m c) (fun t _ => flushed_eq m c t) covered

/-- The run, read: the result array at the node update of the arguments, the arguments unchanged. -/
theorem run : θ_run defs (onTc (τ := τ) (main (F := Ideal))) ⟨m, fun _ => 0, ρ⟩ fun r => ∀ c : Dev nD,
      r.2.mem ((c : Thread nD τ).loc main_v9) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Node

end
-- ==== Proof.lean ====
/-
  A node update of a graph network against its plain reference, over the extended reals.

  Each of 50000 nodes has a feature row of 128 entries. The edge rows are summed into their source nodes (a
  scatter sum, computed the same way on both sides and never opened here); the node's features and its aggregated
  edge features pass through a two-layer perceptron with a rectifier in between, and the node's features are added
  back. The reference multiplies the joined 256-entry row by the whole 256-row weight matrix; the pipelined
  program multiplies the two 128-entry rows by the two halves of that matrix and adds the products, on blocks of
  5000 nodes. A sum over 256 positions is the sum over its two halves, and sums of extended reals may be
  regrouped whatever their terms, so the two results agree index by index with no appeal to finiteness.

  Spec.lean states the update as one function of the arrays; RefSide.lean reads the reference's run as that
  function; Payload.lean, Block.lean, HostArrays.lean and KernelSide.lean read the pipelined run as the same
  function; the three frames are the generated runs, and the idealization rewrote nothing.
-/
import proofs.«120654_j54451595379231_1_alg».proof.Defs
import proofs.«120654_j54451595379231_1_alg».proof.Proof.Gen.Kernel
import proofs.«120654_j54451595379231_1_alg».proof.Proof.Gen.Kernel.Frame
import proofs.«120654_j54451595379231_1_alg».proof.Proof.Gen.KernelIdeal
import proofs.«120654_j54451595379231_1_alg».proof.Proof.Gen.KernelIdeal.Frame
import proofs.«120654_j54451595379231_1_alg».proof.Proof.Gen.KernelIdeal.Value
import proofs.«120654_j54451595379231_1_alg».proof.Proof.Gen.ReferenceIdeal
import proofs.«120654_j54451595379231_1_alg».proof.Proof.Gen.ReferenceIdeal.Run
import proofs.«120654_j54451595379231_1_alg».proof.Proof.Gen.ReferenceIdeal.Read
import proofs.«120654_j54451595379231_1_alg».proof.Proof.Gen.Pre_finite_inputs
import proofs.«120654_j54451595379231_1_alg».proof.Proof.RefSide
import proofs.«120654_j54451595379231_1_alg».proof.Proof.KernelSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no pipelined region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the node update of arguments that agree: the pipelined one by its
    blocks, the reference's by reading its operations one at a time; the scatter sum is the same term of the same
    arguments on both sides. -/
theorem algebraic : Cert.algebraic_KernelIdeal_ReferenceIdeal := by
  intro m ρ m' ρ' _ hagree
  refine ⟨fun c => Cert.KernelIdeal.Node.whole m c, Cert.KernelIdeal.Node.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v15_eq, Cert.ReferenceIdeal.Node.result_ref, a0, a1, a2, a5, a6, a7, a8]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
